-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048x2 : Shape := ⟨3, ![2048, 2048, 2]⟩
abbrev S4194304x2 : Shape := ⟨2, ![4194304, 2]⟩
abbrev S_ : Shape := ⟨0, ![]⟩

class Facts : Prop where
  bcast_S_S2048x2048x2 : S_.BroadcastsInDim S2048x2048x2 (![] : Fin 0 → Fin S2048x2048x2.rank)
  reducesTo_S2048x2048x2_S_d0_1_2 : S2048x2048x2.ReducesTo [0, 1, 2] S_
  h_S_ : 0 < S_.numel
  bcast_S_S4194304x2 : S_.BroadcastsInDim S4194304x2 (![] : Fin 0 → Fin S4194304x2.rank)
  reducesTo_S4194304x2_S_d0_1 : S4194304x2.ReducesTo [0, 1] S_

variable [Facts]

def fn_part1 {F : FTy → Type} [FloatOps F] (main_arg1 : FVec F S4194304x2 .f32) (main_v14 : IVec S_ 1) (main_v15 : FVec F S4194304x2 .f32) : IVec S_ 1 :=
  let main_v16 : FVec F S4194304x2 .f32 := addf main_arg1 main_v15
  let main_v17 : FVec F S4194304x2 .f32 := Host.log main_v16
  let main_v18 : FVec F S4194304x2 .f32 := Host.negf main_v17
  let main_cst_6 : FVec F S_ .f32 := constant S_ .f32 0x1E3CE508#32
  let main_v19 : FVec F S4194304x2 .f32 := broadcastInDim S4194304x2 ![] bcast_S_S4194304x2 main_cst_6
  let main_v20 : FVec F S4194304x2 .f32 := addf main_v18 main_v19
  let main_cst_7 : FVec F S_ .f32 := constant S_ .f32 0x00000000#32
  let main_v21 : FVec F S4194304x2 .f32 := broadcastInDim S4194304x2 ![] bcast_S_S4194304x2 main_cst_7
  let main_v22 : IVec S4194304x2 1 := cmpf .ogt main_v20 main_v21
  let main_c_8 : IVec S_ 1 := constantI S_ 1 1#1
  let main_v23 : IVec S_ 1 := (fun x v => Host.reduce IntOp.andi x v reducesTo_S4194304x2_S_d0_1 h_S_) main_v22 main_c_8
  let main_v24 : IVec S_ 1 := andi main_v14 main_v23
  main_v24

def fn {F : FTy → Type} [FloatOps F] (main_arg0 : FVec F S2048x2048x2 .f32) (main_arg1 : FVec F S4194304x2 .f32) : IVec S_ 1 :=
  let main_v0 : FVec F S2048x2048x2 .f32 := Host.absf main_arg0
  let main_cst : FVec F S_ .f32 := constant S_ .f32 0x7F800000#32
  let main_v1 : FVec F S2048x2048x2 .f32 := broadcastInDim S2048x2048x2 ![] bcast_S_S2048x2048x2 main_cst
  let main_v2 : IVec S2048x2048x2 1 := cmpf .olt main_v0 main_v1
  let main_c : IVec S_ 1 := constantI S_ 1 1#1
  let main_v3 : IVec S_ 1 := (fun x v => Host.reduce IntOp.andi x v reducesTo_S2048x2048x2_S_d0_1_2 h_S_) main_v2 main_c
  let main_v4 : FVec F S4194304x2 .f32 := Host.absf main_arg1
  let main_cst_0 : FVec F S_ .f32 := constant S_ .f32 0x7F800000#32
  let main_v5 : FVec F S4194304x2 .f32 := broadcastInDim S4194304x2 ![] bcast_S_S4194304x2 main_cst_0
  let main_v6 : IVec S4194304x2 1 := cmpf .olt main_v4 main_v5
  let main_c_1 : IVec S_ 1 := constantI S_ 1 1#1
  let main_v7 : IVec S_ 1 := (fun x v => Host.reduce IntOp.andi x v reducesTo_S4194304x2_S_d0_1 h_S_) main_v6 main_c_1
  let main_v8 : IVec S_ 1 := andi main_v3 main_v7
  let main_cst_2 : FVec F S_ .f32 := constant S_ .f32 0x1E3CE508#32
  let main_v9 : FVec F S4194304x2 .f32 := broadcastInDim S4194304x2 ![] bcast_S_S4194304x2 main_cst_2
  let main_v10 : FVec F S4194304x2 .f32 := addf main_arg1 main_v9
  let main_cst_3 : FVec F S_ .f32 := constant S_ .f32 0x00000000#32
  let main_v11 : FVec F S4194304x2 .f32 := broadcastInDim S4194304x2 ![] bcast_S_S4194304x2 main_cst_3
  let main_v12 : IVec S4194304x2 1 := cmpf .ogt main_v10 main_v11
  let main_c_4 : IVec S_ 1 := constantI S_ 1 1#1
  let main_v13 : IVec S_ 1 := (fun x v => Host.reduce IntOp.andi x v reducesTo_S4194304x2_S_d0_1 h_S_) main_v12 main_c_4
  let main_v14 : IVec S_ 1 := andi main_v8 main_v13
  let main_cst_5 : FVec F S_ .f32 := constant S_ .f32 0x1E3CE508#32
  let main_v15 : FVec F S4194304x2 .f32 := broadcastInDim S4194304x2 ![] bcast_S_S4194304x2 main_cst_5
  fn_part1 (F := F) main_arg1 main_v14 main_v15
-- ==== Kernel.lean ====
abbrev S2048x2048x2 : Shape := ⟨3, ![2048, 2048, 2]⟩
abbrev S4194304x2 : Shape := ⟨2, ![4194304, 2]⟩
abbrev S2x2048x2048 : Shape := ⟨3, ![2, 2048, 2048]⟩
abbrev S2048x2048 : Shape := ⟨2, ![2048, 2048]⟩
abbrev S2x256x2048 : Shape := ⟨3, ![2, 256, 2048]⟩
abbrev S256x2048 : Shape := ⟨2, ![256, 2048]⟩
abbrev S1x256x2048 : Shape := ⟨3, ![1, 256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048x2, .f32⟩
  | .hbm, ⟨1, _⟩ => ⟨S4194304x2, .f32⟩
  | .hbm, ⟨2, _⟩ => ⟨S2048x2048x2, .f32⟩
  | .hbm, ⟨3, _⟩ => ⟨S2x2048x2048, .f32⟩
  | .hbm, ⟨4, _⟩ => ⟨S2x2048x2048, .f32⟩
  | .hbm, ⟨5, _⟩ => ⟨S2048x2048, .f32⟩
  | .local _ .vmem, ⟨0, _⟩ => ⟨S2x256x2048, .f32⟩
  | .local _ .vmem, ⟨1, _⟩ => ⟨S2x256x2048, .f32⟩
  | .local _ .vmem, ⟨2, _⟩ => ⟨S2x256x2048, .f32⟩
  | .local _ .vmem, ⟨3, _⟩ => ⟨S2x256x2048, .f32⟩
  | .local _ .vmem, ⟨4, _⟩ => ⟨S256x2048, .f32⟩
  | .local _ .vmem, ⟨5, _⟩ => ⟨S256x2048, .f32⟩
  | _, _ => ⟨S2048x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4194304x2_S2048x2048x2 : S4194304x2.ShapeCasts S2048x2048x2
  transposes_S2048x2048x2_S2x2048x2048_2_0_1 : S2048x2048x2.Transposes [2, 0, 1] S2x2048x2048
  inb_S2x256x2048_S1x256x2048_0_0_0 : ∀ a, (![0, 0, 0] : Fin 3 → Nat) a + S1x256x2048.size a ≤ S2x256x2048.size a
  h_S1x256x2048 : 0 < S1x256x2048.numel
  shapeCasts_S1x256x2048_S256x2048 : S1x256x2048.ShapeCasts S256x2048
  inb_S2x256x2048_S1x256x2048_1_0_0 : ∀ a, (![1, 0, 0] : Fin 3 → Nat) a + S1x256x2048.size a ≤ S2x256x2048.size a
  inb_S256x2048_S256x2048_0_0 : ∀ a, (![0, 0] : Fin 2 → Nat) a + S256x2048.size a ≤ S256x2048.size a
  h_S256x2048 : 0 < S256x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x2048.size a ≤ S2x2048x2048.size a
  hwx0_0 : ∀ i : grid0.Coords, EltTy.bits .f32 = 32 ∨ (Rect.block (s := S2x2048x2048) S2x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x2048.size a ≤ S2x2048x2048.size a
  hwx0_1 : ∀ i : grid0.Coords, EltTy.bits .f32 = 32 ∨ (Rect.block (s := S2x2048x2048) S2x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)

variable [Facts₀]

abbrev win0_0 : Pipeline.Window sig grid0 :=
  Pipeline.Window.ofSpec (Memref.whole main_v1) S2x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048x2 : Shape := ⟨3, ![2048, 2048, 2]⟩
abbrev S4194304x2 : Shape := ⟨2, ![4194304, 2]⟩
abbrev S_ : Shape := ⟨0, ![]⟩
abbrev S4194304 : Shape := ⟨1, ![4194304]⟩
abbrev S4194304x1 : Shape := ⟨2, ![4194304, 1]⟩
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2048x2048x2, .f32⟩
  | .hbm, ⟨1, _⟩ => ⟨S4194304x2, .f32⟩
  | .hbm, ⟨2, _⟩ => ⟨S4194304x2, .f32⟩
  | .hbm, ⟨3, _⟩ => ⟨S_, .f32⟩
  | .hbm, ⟨4, _⟩ => ⟨S4194304x2, .f32⟩
  | .hbm, ⟨5, _⟩ => ⟨S4194304x2, .f32⟩
  | .hbm, ⟨6, _⟩ => ⟨S4194304x2, .f32⟩
  | .hbm, ⟨7, _⟩ => ⟨S4194304x2, .f32⟩
  | .hbm, ⟨8, _⟩ => ⟨S_, .f32⟩
  | .hbm, ⟨9, _⟩ => ⟨S4194304x2, .f32⟩
  | .hbm, ⟨10, _⟩ => ⟨S4194304x2, .f32⟩
  | .hbm, ⟨11, _⟩ => ⟨S4194304x2, .f32⟩
  | .hbm, ⟨12, _⟩ => ⟨S4194304x2, .f32⟩
  | .hbm, ⟨13, _⟩ => ⟨S4194304x2, .f32⟩
  | .hbm, ⟨14, _⟩ => ⟨S_, .f32⟩
  | .hbm, ⟨15, _⟩ => ⟨S4194304x2, .f32⟩
  | .hbm, ⟨16, _⟩ => ⟨S4194304x2, .f32⟩
  | .hbm, ⟨17, _⟩ => ⟨S_, .f32⟩
  | .hbm, ⟨18, _⟩ => ⟨S4194304, .f32⟩
  | .hbm, ⟨19, _⟩ => ⟨S_, .f32⟩
  | .hbm, ⟨20, _⟩ => ⟨S4194304, .f32⟩
  | .hbm, ⟨21, _⟩ => ⟨S4194304, .f32⟩
  | .hbm, ⟨22, _⟩ => ⟨S4194304x1, .f32⟩
  | .hbm, ⟨23, _⟩ => ⟨S4194304x2, .f32⟩
  | .hbm, ⟨24, _⟩ => ⟨S4194304x2, .f32⟩
  | .hbm, ⟨25, _⟩ => ⟨S4194304x2, .f32⟩
  | .hbm, ⟨26, _⟩ => ⟨S_, .f32⟩
  | .hbm, ⟨27, _⟩ => ⟨S4194304, .f32⟩
  | .hbm, ⟨28, _⟩ => ⟨S4194304x1, .f32⟩
  | .hbm, ⟨29, _⟩ => ⟨S4194304x2, .f32⟩
  | .hbm, ⟨30, _⟩ => ⟨S4194304x2, .f32⟩
  | .hbm, ⟨31, _⟩ => ⟨S4194304x1, .f32⟩
  | .hbm, ⟨32, _⟩ => ⟨S4194304, .f32⟩
  | .hbm, ⟨33, _⟩ => ⟨S2048x2048, .f32⟩
  | _, _ => ⟨S2048x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  shapeCasts_S2048x2048x2_S4194304x2 : S2048x2048x2.ShapeCasts S4194304x2
  bcast_S_S4194304x2 : S_.BroadcastsInDim S4194304x2 (![] : Fin 0 → Fin S4194304x2.rank)
  reducesTo_S4194304x2_S4194304_d1 : S4194304x2.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x2_0_1 : S4194304x1.BroadcastsInDim S4194304x2 (![0, 1] : Fin 2 → Fin S4194304x2.rank)
  slices_S4194304x2_S4194304x1_0_0 : S4194304x2.Slices ![0, 0] S4194304x1
  shapeCasts_S4194304x1_S4194304 : S4194304x1.ShapeCasts S4194304
  shapeCasts_S4194304_S2048x2048 : S4194304.ShapeCasts S2048x2048

variable [Facts₀]

class Facts : Prop extends Facts₀ where

variable [Facts]
-- ==== Proof.Spec.lean ====
/-
  The one function both programs compute, entry by entry, on the extended reals.

  Output entry (r, c) depends on four inputs only: the two logits a₀, a₁ = gen_matrix[r, c, 0], gen_matrix[r, c, 1] and the
  two noise values u₀, u₁ = u[2048·r + c, 0], u[2048·r + c, 1].  With L(u) = ε − log (u + ε):

  * the kernel writes  σ( ((a₀ − a₁) + log (L u₁ / L u₀)) · (1/10) ),  σ x = 1 / (1 + e^(−x));
  * the reference writes the first entry of the two-way softmax of z_k = (a_k − log (L u_k)) / 10, that is
    e^(z₀ − M) / (e^(z₀ − M) + e^(z₁ − M)) with M = max z₀ z₁.

  When both L u_k are positive reals these agree: log (L u₁ / L u₀) = log L u₁ − log L u₀, so the kernel's argument is
  z₀ − z₁, and e^(z₀−M) / (e^(z₀−M) + e^(z₁−M)) = 1 / (1 + e^(z₁ − z₀)).
-/
import Idealize.ShloMosaic.PureOps.Ideal
import Idealize.ShloMosaic.Lib.ValueIdx

noncomputable section

namespace Cert.Gumbel

open Idealize.ShloMosaic Idealize.ShloMosaic.ValueIdx

/-- ε: the value of the one f32 word (nearest to 1e-20) that both programs add under their logarithms. -/
def eps : EReal := Ideal.ofBits .f32 0x1E3CE508#32

/-- The reference's temperature, the f32 word of 10.0. -/
def ten : EReal := Ideal.ofBits .f32 0x41200000#32

/-- L u = ε − log (u + ε), as the kernel spells it. -/
def kL (u : EReal) : EReal := eps - Ideal.log (u + eps)

/-- What the kernel stores for logits a₀, a₁ and noise u₀, u₁. -/
def kernelElt (a0 a1 u0 u1 : EReal) : EReal :=
  Ideal.logistic (((a0 - a1) + Ideal.log (Ideal.div (kL u1) (kL u0))) * ((1 / 10 : ℝ) : EReal))

/-- The reference's scaled perturbed logit (a + (−log (−log (u + ε) + ε))) / 10. -/
def z (a u : EReal) : EReal :=
  Ideal.div (a + -(Ideal.log (-(Ideal.log (u + eps)) + eps))) ten

/-- What the reference returns: channel 0 of the softmax over the two channels, shifted by their maximum. -/
def refElt (a0 a1 u0 u1 : EReal) : EReal :=
  Ideal.div (Ideal.exp (z a0 u0 - max (z a0 u0) (z a1 u1)))
    (Ideal.exp (z a0 u0 - max (z a0 u0) (z a1 u1)) + Ideal.exp (z a1 u1 - max (z a0 u0) (z a1 u1)))

/-- The shapes of gen_matrix, of u and of the result. -/
abbrev SA : Shape := ⟨3, ![2048, 2048, 2]⟩
abbrev SU : Shape := ⟨2, ![4194304, 2]⟩
abbrev SO : Shape := ⟨2, ![2048, 2048]⟩

/-- Row 2048·r + c of u: the row-major position of (r, c) in a 2048 × 2048 grid. -/
def row (r c : Fin 2048) : Fin 4194304 := ⟨r.val * 2048 + c.val, by omega⟩

/-- Entry (r, c) of the result, in the kernel's form, from the two argument arrays. -/
def Gelt (x0 : SA.Idx → EReal) (x1 : SU.Idx → EReal) (r c : Fin 2048) : EReal :=
  kernelElt (x0 (ix3 r c (0 : Fin 2))) (x0 (ix3 r c (1 : Fin 2))) (x1 (ix2 (row r c) (0 : Fin 2))) (x1 (ix2 (row r c) (1 : Fin 2)))

/-- The same entry in the reference's form. -/
def Relt (x0 : SA.Idx → EReal) (x1 : SU.Idx → EReal) (r c : Fin 2048) : EReal :=
  refElt (x0 (ix3 r c (0 : Fin 2))) (x0 (ix3 r c (1 : Fin 2))) (x1 (ix2 (row r c) (0 : Fin 2))) (x1 (ix2 (row r c) (1 : Fin 2)))

/-- The whole result array as one function of the argument arrays. -/
def G (x0 : SA.Idx → EReal) (x1 : SU.Idx → EReal) : SO.Idx → EReal := fun i => Gelt x0 x1 (i 0) (i 1)

end Cert.Gumbel

end
-- ==== Proof.Scalar.lean ====
/-
  The law that joins the two programs at one entry.

  Write e for ε (a real number), and for a noise value u with u + e > 0 and L = −log (u + e) + e > 0 put
  l = e − log (u + e) = L.  Then every operation of both programs stays among the real numbers:

    kernel     σ( ((a₀ − a₁) + log (l₁ / l₀)) / 10 )          with log (l₁ / l₀) = log l₁ − log l₀,
    reference  e^(z₀ − M) / (e^(z₀ − M) + e^(z₁ − M)),         z_k = (a_k − log l_k) / 10,  M = max z₀ z₁.

  The kernel's argument is z₀ − z₁, and dividing numerator and denominator of the reference's quotient by e^(z₀ − M)
  gives 1 / (1 + e^(z₁ − z₀)) = σ (z₀ − z₁): the shift by M cancels.
-/
import proofs.«182107_g16484084483463_cont_7to1_1417_13_alg».proof.Proof.Spec
import Mathlib.Analysis.SpecialFunctions.Log.Basic
import Mathlib.Analysis.SpecialFunctions.Exp

noncomputable section

namespace Cert.Gumbel

open Idealize.ShloMosaic

/-- ε is a real number (its f32 word is an ordinary normal number). -/
theorem eps_real : ∃ e : ℝ, eps = (e : EReal) := by
  refine ⟨(12379400 : ℝ) * (2 : ℝ) ^ (-90 : ℤ), ?_⟩
  unfold eps
  simp [Ideal.ofBits, Ideal.ieee, -EReal.coe_mul]

/-- The reference's temperature word is the real number 10. -/
theorem ten_eq : ten = ((10 : ℝ) : EReal) := by
  unfold ten
  simp [Ideal.ofBits, Ideal.ieee, -EReal.coe_mul]; norm_num

/-- The logarithm of a positive real is the real logarithm. -/
theorem log_coe_pos {x : ℝ} (h : 0 < x) : Ideal.log (x : EReal) = (Real.log x : EReal) := by
  rw [Ideal.log_coe, if_neg (not_le.2 h)]

/-- A quotient of reals by a nonzero real is the real quotient. -/
theorem div_coe_coe (x : ℝ) {y : ℝ} (h : y ≠ 0) : Ideal.div (x : EReal) (y : EReal) = ((x * (1 / y) : ℝ) : EReal) := by
  rw [Ideal.div_coe h, ← EReal.coe_mul]

/-- The larger of two reals, as an extended real, is the larger of the two extended reals. -/
theorem max_coe_coe (x y : ℝ) : max (x : EReal) (y : EReal) = ((max x y : ℝ) : EReal) :=
  (EReal.coe_strictMono.monotone.map_max).symm

/-- The identity among real numbers: the two-way softmax's first entry is the logistic function of the difference. -/
theorem softmax_two (z0 z1 : ℝ) :
    Real.exp (z0 - max z0 z1) * (1 / (Real.exp (z0 - max z0 z1) + Real.exp (z1 - max z0 z1)))
      = (1 + Real.exp (-(z0 - z1)))⁻¹ := by
  have hA : 0 < Real.exp (z0 - max z0 z1) := Real.exp_pos _
  have hB : 0 < Real.exp (z1 - max z0 z1) := Real.exp_pos _
  have hq : Real.exp (-(z0 - z1)) = Real.exp (z1 - max z0 z1) / Real.exp (z0 - max z0 z1) := by
    rw [← Real.exp_sub]; congr 1; ring
  rw [hq]
  field_simp

/-- L u = −log (u + e) + e is a real number when u + e is positive (the kernel spells it e − log (u + e)). -/
theorem kL_coe {u e : ℝ} (he : eps = (e : EReal)) (w : 0 < u + e) :
    kL (u : EReal) = ((-Real.log (u + e) + e : ℝ) : EReal) := by
  unfold kL
  rw [he, ← EReal.coe_add, log_coe_pos w, ← EReal.coe_sub]
  congr 1; ring

/-- The reference's scaled logit is a real number when u + e and L u are positive. -/
theorem z_coe (a : ℝ) {u e : ℝ} (he : eps = (e : EReal)) (w : 0 < u + e) (l : 0 < -Real.log (u + e) + e) :
    z (a : EReal) (u : EReal) = (((a + -Real.log (-Real.log (u + e) + e)) * (1 / 10) : ℝ) : EReal) := by
  unfold z
  rw [he, ten_eq, ← EReal.coe_add, log_coe_pos w, ← EReal.coe_neg, ← EReal.coe_add, log_coe_pos l, ← EReal.coe_neg,
    ← EReal.coe_add, div_coe_coe _ (by norm_num : (10 : ℝ) ≠ 0)]

/-- THE LAW: for real logits and real noise values at which both logarithms of the reference have a positive argument,
    the kernel's logistic form and the reference's two-way softmax are the same extended real. -/
theorem kernelElt_eq_refElt (a0 a1 u0 u1 : ℝ)
    (h0 : (0 : EReal) < (u0 : EReal) + eps) (h0' : (0 : EReal) < -(Ideal.log ((u0 : EReal) + eps)) + eps)
    (h1 : (0 : EReal) < (u1 : EReal) + eps) (h1' : (0 : EReal) < -(Ideal.log ((u1 : EReal) + eps)) + eps) :
    kernelElt a0 a1 u0 u1 = refElt a0 a1 u0 u1 := by
  obtain ⟨e, he⟩ := eps_real
  rw [he] at h0 h0' h1 h1'
  have w0 : 0 < u0 + e := by exact_mod_cast h0
  have w1 : 0 < u1 + e := by exact_mod_cast h1
  rw [← EReal.coe_add, log_coe_pos w0, ← EReal.coe_neg, ← EReal.coe_add] at h0'
  rw [← EReal.coe_add, log_coe_pos w1, ← EReal.coe_neg, ← EReal.coe_add] at h1'
  have l0 : 0 < -Real.log (u0 + e) + e := by exact_mod_cast h0'
  have l1 : 0 < -Real.log (u1 + e) + e := by exact_mod_cast h1'
  have hq : 0 < (-Real.log (u1 + e) + e) * (1 / (-Real.log (u0 + e) + e)) := by positivity
  have hs : Real.exp ((a0 + -Real.log (-Real.log (u0 + e) + e)) * (1 / 10)
        - max ((a0 + -Real.log (-Real.log (u0 + e) + e)) * (1 / 10)) ((a1 + -Real.log (-Real.log (u1 + e) + e)) * (1 / 10)))
      + Real.exp ((a1 + -Real.log (-Real.log (u1 + e) + e)) * (1 / 10)
        - max ((a0 + -Real.log (-Real.log (u0 + e) + e)) * (1 / 10)) ((a1 + -Real.log (-Real.log (u1 + e) + e)) * (1 / 10))) ≠ 0 := by
    positivity
  unfold kernelElt refElt
  rw [kL_coe he w0, kL_coe he w1, z_coe a0 he w0 l0, z_coe a1 he w1 l1, div_coe_coe _ l0.ne', log_coe_pos hq,
    ← EReal.coe_sub, ← EReal.coe_add, ← EReal.coe_mul, Ideal.logistic_coe,
    max_coe_coe, ← EReal.coe_sub, ← EReal.coe_sub, Ideal.exp_coe, Ideal.exp_coe, ← EReal.coe_add,
    div_coe_coe _ hs, softmax_two]
  congr 3
  rw [Real.log_mul l1.ne' (one_div_ne_zero l0.ne'), one_div, Real.log_inv]
  congr 1
  ring

end Cert.Gumbel

end
-- ==== Proof.PreFacts.lean ====
/-
  What the precondition says, entry by entry.

  The precondition is a conjunction of four "for every entry" statements: |a| < +∞ for every logit a, |u| < +∞ for
  every noise value u, u + ε > 0, and (−log (u + ε)) + ε > 0.  Read on the extended reals, |x| < +∞ says x is neither
  infinity, hence a real number; the last two say that both logarithms of the reference are taken at a positive argument.
-/
import proofs.«182107_g16484084483463_cont_7to1_1417_13_alg».proof.Pre_finite_inputs
import proofs.«182107_g16484084483463_cont_7to1_1417_13_alg».proof.Proof.Gen.Pre_finite_inputs
import proofs.«182107_g16484084483463_cont_7to1_1417_13_alg».proof.Proof.Spec
import Idealize.ShloMosaic.Lib.ReduceAll
import Idealize.ShloMosaic.Lib.IdealHost

namespace Cert.Gumbel

open Idealize.ShloMosaic Idealize.ShloMosaic.ValueIdx

/-- A "less than" comparison word that is 1 says the order relation holds. -/
theorem lt_of_cmp_olt {x y : EReal} (h : Ideal.cmp .olt x y = 1#1) : x < y := by
  unfold Ideal.cmp at h
  by_contra hn
  simp [hn] at h

/-- A "greater than" comparison word that is 1 says the order relation holds. -/
theorem lt_of_cmp_ogt {x y : EReal} (h : Ideal.cmp .ogt x y = 1#1) : y < x := by
  unfold Ideal.cmp at h
  by_contra hn
  simp [hn] at h

/-- The word of +∞. -/
theorem ofBits_inf : Ideal.ofBits .f32 0x7F800000#32 = (⊤ : EReal) := by simp [Ideal.ofBits, Ideal.ieee]

/-- An extended real whose absolute value max x (−x) is below +∞ is a real number. -/
theorem real_of_abs_lt_top (x : EReal) (h : max x (-x) < ⊤) : ∃ a : ℝ, x = (a : EReal) := by
  induction x using EReal.rec with
  | bot => simp at h
  | coe a => exact ⟨a, rfl⟩
  | top => simp at h

/-- The rank-0 shape has one index. -/
instance : Subsingleton Cert.Pre_finite_inputs.S_.Idx := ⟨fun a b => funext fun d => d.elim0⟩

open Idealize.ShloMosaic in
theorem pre_facts [Cert.Pre_finite_inputs.Facts] (x0 : SA.Idx → EReal) (x1 : SU.Idx → EReal)
    (h : Cert.Pre_finite_inputs.fn (F := Ideal) x0 x1 = fun _ => 1#1) :
    (∀ j, ∃ a : ℝ, x0 j = (a : EReal)) ∧ (∀ j, ∃ u : ℝ, x1 j = (u : EReal)) ∧
    (∀ j, (0 : EReal) < x1 j + eps) ∧ (∀ j, (0 : EReal) < -(Ideal.log (x1 j + eps)) + eps) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  -- a scalar constant broadcast over u's shape is that constant at every entry
  have hb : ∀ w : BitVec 32, broadcastInDim Cert.Pre_finite_inputs.S4194304x2 ![]
      Cert.Pre_finite_inputs.Facts.bcast_S_S4194304x2 (constant (F := Ideal) Cert.Pre_finite_inputs.S_ .f32 w)
        = fun _ => Ideal.ofBits .f32 w :=
    fun w => funext fun i => broadcastInDim_scalar_apply _ _ i
  refine ⟨fun j => ?_, fun j => ?_, fun j => ?_, fun j => ?_⟩
  · have e := Host.reduce_andi_all _ _ _ _ _ h1 j
    rw [cmpf_apply, broadcastInDim_scalar_apply] at e
    exact real_of_abs_lt_top _ (ofBits_inf ▸ lt_of_cmp_olt e)
  · have e := Host.reduce_andi_all _ _ _ _ _ h2 j
    rw [cmpf_apply, broadcastInDim_scalar_apply] at e
    exact real_of_abs_lt_top _ (ofBits_inf ▸ lt_of_cmp_olt e)
  · have e := Host.reduce_andi_all _ _ _ _ _ h3 j
    simp only [hb] at e
    have e2 : Ideal.ofBits .f32 0x00000000#32 < x1 j + eps := lt_of_cmp_ogt e
    rwa [Ideal.ofBits_zero_f32] at e2
  · have e := Host.reduce_andi_all _ _ _ _ _ h4 j
    simp only [hb] at e
    have e2 : Ideal.ofBits .f32 0x00000000#32 < -(Ideal.log (x1 j + eps)) + eps := lt_of_cmp_ogt e
    rwa [Ideal.ofBits_zero_f32] at e2

end Cert.Gumbel
-- ==== Proof.RefRead.lean ====
/-
  The reference program read at one output entry.

  The reference flattens gen_matrix to 4194304 rows of two channels (row 2048·r + c holds entry (r, c)), forms on every
  row and channel the scaled perturbed logit z = (a − log (−log (u + ε) + ε)) / 10, takes the row's maximum M over the two
  channels, exponentiates z − M, divides by the row's sum of the two exponentials, keeps channel 0 and reshapes the
  4194304 results to 2048 × 2048.  Read at entry (r, c) every stage touches row 2048·r + c only, so the result is
  e^(z₀ − M) / (e^(z₀ − M) + e^(z₁ − M)) of the four inputs that entry depends on.

  The maximum over the channel axis is a fold of max over the two channels that starts from the word of −∞; that word
  is the bottom of the extended reals, so the fold is max z₀ z₁.  The sum starts from the zero word, so it is the plain
  sum of the two exponentials.
-/
import proofs.«182107_g16484084483463_cont_7to1_1417_13_alg».proof.Proof.Gen.ReferenceIdeal.Read
import proofs.«182107_g16484084483463_cont_7to1_1417_13_alg».proof.Proof.Spec
import Idealize.ShloMosaic.PureOps.Reduce
import Idealize.ShloMosaic.PureOps.Ideal.Laws
import Idealize.ShloMosaic.Lib.ValueIdx

noncomputable section

namespace Cert.Gumbel

open Idealize.ShloMosaic Idealize.ShloMosaic.ValueIdx
open Cert.ReferenceIdeal Cert.ReferenceIdeal.Gen Cert.ReferenceIdeal.Read

/-! ## Positions -/

/-- Channel k of row 2048·r + c of the flattened logits is entry (r, c, k) of gen_matrix:
    ((2048 r + c)·2 + k) / 4096 = r, its half modulo 2048 is c, and it is k modulo 2. -/
theorem flat_logit_pos (r c : Fin 2048) (k : Fin 2) : idx_main_v0 (ix2 (row r c) k) = ix3 r c k := by
  funext a
  apply Fin.ext
  have hr := r.isLt
  have hc := c.isLt
  have hk := k.isLt
  match a with
  | ⟨0, _⟩ => show ((r.val * 2048 + c.val) * 2 + k.val) / 4096 = r.val; omega
  | ⟨1, _⟩ => show ((r.val * 2048 + c.val) * 2 + k.val) / 2 % 2048 = c.val; omega
  | ⟨2, _⟩ => show ((r.val * 2048 + c.val) * 2 + k.val) % 2 = k.val; omega

/-- A row's index with channel k put back on the reduced axis is (row, k). -/
theorem lift_row (h : S4194304x2.Reduces [1] S4194304) (r c : Fin 2048) (k : Fin (S4194304x2.size 1)) :
    h.lift (ix1 (row r c)) k = ix2 (row r c) (⟨k.val, k.isLt⟩ : Fin 2) := by
  funext a
  apply Fin.ext
  match a with
  | ⟨0, _⟩ => rfl
  | ⟨1, _⟩ => rfl

/-! ## The scaled perturbed logit -/

/-- On row 2048·r + c, channel k, the reference's quotient by ten is z of gen_matrix[r, c, k] and u[2048·r + c, k]. -/
theorem z_read (x0 : SA.Idx → EReal) (x1 : SU.Idx → EReal) (r c : Fin 2048) (k : Fin 2) :
    val_main_v11 (F := Ideal) x0 x1 (ix2 (row r c) k) = z (x0 (ix3 r c k)) (x1 (ix2 (row r c) k)) := by
  rw [val_main_v11_apply, val_main_v9_apply, val_main_v0_apply, val_main_v8_apply, val_main_v7_apply,
    val_main_v6_apply, val_main_v4_apply, val_main_v3_apply, val_main_v2_apply, val_main_v1_apply,
    val_main_cst_apply, val_main_v5_apply, val_main_cst_0_apply, val_main_v10_apply, val_main_cst_1_apply,
    flat_logit_pos]
  simp only [Ideal.hostDivf_def, Ideal.addf_def, Ideal.hostNegf_def, Ideal.negf_def, Ideal.hostUnary_log_def,
    Ideal.ofBits_def]
  rfl

/-! ## The maximum over the two channels -/

/-- The word the maximum starts from denotes −∞, the bottom of the extended reals. -/
theorem negInf_word : Ideal.ofBits .f32 0xFF800000#32 = (⊥ : EReal) := by
  simp [Ideal.ofBits, Ideal.ieee]

/-- A fold of max over two channels from −∞ is the maximum of the two. -/
theorem fold_max_two (f : Fin 2 → EReal) :
    (Finset.univ : Finset (Fin 2)).fold max (Ideal.ofBits .f32 0xFF800000#32) f = max (f 0) (f 1) := by
  rw [negInf_word, show (Finset.univ : Finset (Fin 2)) = {0, 1} from by decide,
    Finset.fold_insert (by decide), Finset.fold_singleton, max_eq_left bot_le]

/-- The row maximum M on row 2048·r + c is max z₀ z₁. -/
theorem max_read (x0 : SA.Idx → EReal) (x1 : SU.Idx → EReal) (r c : Fin 2048) :
    val_main_v14 (F := Ideal) x0 x1 (ix1 (row r c))
      = max (z (x0 (ix3 r c (0 : Fin 2))) (x1 (ix2 (row r c) (0 : Fin 2))))
          (z (x0 (ix3 r c (1 : Fin 2))) (x1 (ix2 (row r c) (1 : Fin 2)))) := by
  have h : S4194304x2.Reduces [1] S4194304 := by decide
  have hf : (val_main_v11 (F := Ideal) x0 x1 ∘ h.lift (ix1 (row r c)))
      = fun k : Fin 2 => z (x0 (ix3 r c k)) (x1 (ix2 (row r c) k)) :=
    funext fun k => by
      show val_main_v11 (F := Ideal) x0 x1 (h.lift (ix1 (row r c)) k) = _
      rw [lift_row]
      exact z_read x0 x1 r c ⟨k.val, k.isLt⟩
  have e := fold_max_two fun k : Fin 2 => z (x0 (ix3 r c k)) (x1 (ix2 (row r c) k))
  rw [val_main_v14_apply, val_main_v13_apply, val_main_cst_3_apply]
  unfold val_main_v12
  rw [Host.reduce_eq_fold_single FloatOps.maximumf _ _ reducesTo_S4194304x2_S4194304_d1 h h_S_]
  simp only [Ideal.maximumf_def, Ideal.ofBits_def, negInf_word]
  rw [max_eq_right bot_le]
  refine Eq.trans ?_ e
  exact congrArg (fun f => Finset.fold max (Ideal.ofBits .f32 0xFF800000#32) f (Finset.univ : Finset (Fin 2))) hf

/-! ## Exponentials, their sum, and the quotient -/

/-- On row 2048·r + c, channel k, the exponential stage is e^(z_k − M). -/
theorem exp_read (x0 : SA.Idx → EReal) (x1 : SU.Idx → EReal) (r c : Fin 2048) (k : Fin 2) :
    val_main_v18 (F := Ideal) x0 x1 (ix2 (row r c) k)
      = Ideal.exp (z (x0 (ix3 r c k)) (x1 (ix2 (row r c) k))
          - max (z (x0 (ix3 r c (0 : Fin 2))) (x1 (ix2 (row r c) (0 : Fin 2))))
              (z (x0 (ix3 r c (1 : Fin 2))) (x1 (ix2 (row r c) (1 : Fin 2))))) := by
  have hi : idx_main_v15 (idx_main_v16 (ix2 (row r c) k)) = ix1 (row r c) := by
    funext a
    apply Fin.ext
    match a with
    | ⟨0, _⟩ => rfl
  rw [val_main_v18_apply, val_main_v17_apply, val_main_v16_apply, val_main_v15_apply, hi, max_read, z_read]
  simp only [Ideal.hostUnary_exp_def, Ideal.subf_def]

/-- The row sum on row 2048·r + c is e^(z₀ − M) + e^(z₁ − M): the sum starts from the zero word. -/
theorem sum_read (x0 : SA.Idx → EReal) (x1 : SU.Idx → EReal) (r c : Fin 2048) :
    val_main_v19 (F := Ideal) x0 x1 (ix1 (row r c))
      = Ideal.exp (z (x0 (ix3 r c (0 : Fin 2))) (x1 (ix2 (row r c) (0 : Fin 2)))
            - max (z (x0 (ix3 r c (0 : Fin 2))) (x1 (ix2 (row r c) (0 : Fin 2))))
                (z (x0 (ix3 r c (1 : Fin 2))) (x1 (ix2 (row r c) (1 : Fin 2)))))
        + Ideal.exp (z (x0 (ix3 r c (1 : Fin 2))) (x1 (ix2 (row r c) (1 : Fin 2)))
            - max (z (x0 (ix3 r c (0 : Fin 2))) (x1 (ix2 (row r c) (0 : Fin 2))))
                (z (x0 (ix3 r c (1 : Fin 2))) (x1 (ix2 (row r c) (1 : Fin 2))))) := by
  have hi : ∀ k : Fin 2, idx_main_v19 (ix1 (row r c)) k = ix2 (row r c) k := fun k => by
    funext a
    apply Fin.ext
    match a with
    | ⟨0, _⟩ => rfl
    | ⟨1, _⟩ => rfl
  rw [val_main_v19_apply, val_main_cst_4_apply, Fin.sum_univ_two, hi, hi, exp_read, exp_read]
  simp only [Ideal.ofBits_def, Ideal.ofBits_zero_f32, zero_add]

/-! ## The result entry -/

open Idealize.ShloMosaic Idealize.ShloMosaic.ValueIdx in
/-- The reference's last stage at entry (r, c) is the softmax's channel 0 of the four inputs that entry depends on. -/
theorem ref_apply (x0 : SA.Idx → EReal) (x1 : SU.Idx → EReal) (r c : Fin 2048) :
    Cert.ReferenceIdeal.Read.val_main_v25 (F := Ideal) x0 x1 (ix2 r c) = Relt x0 x1 r c := by
  have hr := r.isLt
  have hc := c.isLt
  have hi : idx_main_v23 (idx_main_v24 (idx_main_v25 (ix2 r c))) = ix2 (row r c) (0 : Fin 2) := by
    funext a
    apply Fin.ext
    match a with
    | ⟨0, _⟩ => show (r.val * 2048 + c.val) / 1 = r.val * 2048 + c.val; omega
    | ⟨1, _⟩ => rfl
  have hj : idx_main_v20 (idx_main_v21 (ix2 (row r c) (0 : Fin 2))) = ix1 (row r c) := by
    funext a
    apply Fin.ext
    match a with
    | ⟨0, _⟩ => rfl
  rw [val_main_v25_apply, val_main_v24_apply, val_main_v23_apply, hi, val_main_v22_apply, val_main_v21_apply,
    val_main_v20_apply, hj, sum_read, exp_read]
  simp only [Ideal.hostDivf_def]
  rfl

end Cert.Gumbel

end
-- ==== Proof.HostPre.lean ====
/-
  The two arrays the region stages, read at an entry.

  Before the region the program re-lays its arguments: u : [4194304, 2] is reshaped to [2048, 2048, 2] (row-major, so
  row 2048·r + c becomes position (r, c)), and both [2048, 2048, 2] arrays are transposed to channel-major
  [2, 2048, 2048].  So entry (k, r, c) of the first staged array is gen_matrix[r, c, k], and entry (k, r, c) of the second
  is u[2048·r + c, k].
-/
import proofs.«182107_g16484084483463_cont_7to1_1417_13_alg».proof.Proof.Gen.KernelIdeal.Frame
import proofs.«182107_g16484084483463_cont_7to1_1417_13_alg».proof.Proof.Spec
import Idealize.ShloMosaic.Lib.Pipeline.Value
import Idealize.ShloMosaic.Lib.StableHlo.Run

noncomputable section

namespace Cert.Gumbel

open Idealize.ShloMosaic Idealize.ShloMosaic.ValueIdx Idealize.ShloMosaic.TcCoe Idealize.SL.Sem
open Cert.KernelIdeal Cert.KernelIdeal.Gen

/-- The first staged array is the transpose of gen_matrix that puts the channel axis first. -/
theorem V_main_v1_eq (m : (ℓ : Loc nD τ sig) → Buf (Elt Ideal) ℓ) (c : Dev nD) :
    (V m c main_v1 : S2x2048x2048.Idx → EReal)
      = transpose S2x2048x2048 [2, 0, 1] (m ((c.tc : Thread nD τ).loc main_arg0)) transposes_S2048x2048x2_S2x2048x2048_2_0_1 := by
  dsimp only [V, hostOps0]; after_results

/-- The second staged array is the same transpose of u reshaped to [2048, 2048, 2]. -/
theorem V_main_v2_eq (m : (ℓ : Loc nD τ sig) → Buf (Elt Ideal) ℓ) (c : Dev nD) :
    (V m c main_v2 : S2x2048x2048.Idx → EReal)
      = transpose S2x2048x2048 [2, 0, 1]
          (shapeCast S2048x2048x2 (m ((c.tc : Thread nD τ).loc main_arg1)) shapeCasts_S4194304x2_S2048x2048x2)
          transposes_S2048x2048x2_S2x2048x2048_2_0_1 := by
  dsimp only [V, hostOps0]; after_results; rfl

/-- Entry (k, r, c) of the channel-major logits array the region stages is gen_matrix[r, c, k]. -/
theorem V_at (m : (ℓ : Loc nD τ sig) → Buf (Elt Ideal) ℓ) (c : Dev nD) (k : Fin 2) (r cc : Fin 2048) :
    (V m c main_v1 : S2x2048x2048.Idx → EReal) (ix3 k r cc)
      = (m ((c.tc : Thread nD τ).loc main_arg0) : SA.Idx → EReal) (ix3 r cc k) := by
  rw [V_main_v1_eq]
  exact transpose_apply _ _ _ (ix3 k r cc) (ix3 r cc k)
    (fun b => match b with | ⟨0, _⟩ => rfl | ⟨1, _⟩ => rfl | ⟨2, _⟩ => rfl)

/-- Entry (k, r, c) of the channel-major noise array the region stages is u[2048·r + c, k]. -/
theorem V_ut (m : (ℓ : Loc nD τ sig) → Buf (Elt Ideal) ℓ) (c : Dev nD) (k : Fin 2) (r cc : Fin 2048) :
    (V m c main_v2 : S2x2048x2048.Idx → EReal) (ix3 k r cc)
      = (m ((c.tc : Thread nD τ).loc main_arg1) : SU.Idx → EReal) (ix2 (row r cc) k) := by
  rw [V_main_v2_eq]
  refine (transpose_apply _ _ _ (ix3 k r cc) (ix3 r cc k)
    (fun b => match b with | ⟨0, _⟩ => rfl | ⟨1, _⟩ => rfl | ⟨2, _⟩ => rfl)).trans ?_
  refine shapeCast_apply _ _ (ix3 r cc k) (ix2 (row r cc) k) ?_
  rw [Shape.rowMajor_val_two, Shape.rowMajor_val_three]
  show (row r cc).val * 2 + k.val = (r.val * 2048 + cc.val) * 2 + k.val
  rfl

end Cert.Gumbel

end
-- ==== Proof.KernelArray.lean ====
/-
  From what each grid point writes back to the whole result array.

  The kernel runs on a grid of 8 points.  Point t handles rows 256·t … 256·t + 255: it is handed block (0, t, 0) — both
  channels, 256 rows, all 2048 columns — of the channel-major logits and of the channel-major noise, and writes back block
  (t, 0) — the same 256 rows, all columns — of the result.  Entry (p, q) of that block is one scalar expression of the four
  loaded values at (0, p, q) and (1, p, q).  Reading the two staged arrays back at the arguments' own indices (entry
  (k, r, c) of the staged logits is gen_matrix[r, c, k], of the staged noise u[2048·r + c, k]) turns that expression into
  Spec's `kernelElt` at row r = 256·t + p and column c = q, that is into `G` of the two arguments at (r, c).  Row r lies
  in the block of point r / 256 and of no other, so the 8 blocks cover the array and the array after the region is `G`.
-/
import proofs.«182107_g16484084483463_cont_7to1_1417_13_alg».proof.Proof.Gen.KernelIdeal.Value
import proofs.«182107_g16484084483463_cont_7to1_1417_13_alg».proof.Proof.HostPre
import proofs.«182107_g16484084483463_cont_7to1_1417_13_alg».proof.Proof.Spec
import Idealize.ShloMosaic.Lib.Pipeline.Value
import Idealize.ShloMosaic.Lib.ValueIdx
import Idealize.ShloMosaic.PureOps.IdealRules

noncomputable section

namespace Cert.Gumbel

open Idealize.ShloMosaic Idealize.ShloMosaic.ValueIdx Idealize.ShloMosaic.TcCoe Idealize.SL.Sem
open Cert.KernelIdeal Cert.KernelIdeal.Gen

/-- The three index maps at grid point t, decided over the 8 points: both input windows sit at block (0, t, 0) of
    their [2, 2048, 2048] arrays and the output window at block (t, 0) of the [2048, 2048] result. -/
theorem block_indices : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0 :=
  (by decide +kernel : ∀ t : Fin grid0.N, _)

/-- The logits block of point t at (k, p, q) is gen_matrix[256·t + p, q, k]: a block's coordinate on an axis is the
    block index times the block's extent plus the coordinate inside the block, here (0·2 + k, t·256 + p, 0·2048 + q),
    and the staged array at (k, r, c) is gen_matrix[r, c, k]. -/
theorem logits_block_at (m : (ℓ : Loc nD τ sig) → Buf (Elt Ideal) ℓ) (c : Dev nD) (t : Fin cfg0.N)
    (z : S2x256x2048.Idx) (k : Fin 2) (r cc : Fin 2048)
    (hk : (z 0).val = k.val) (hr : r.val = 256 * t.val + (z 1).val) (hc : cc.val = (z 2).val) :
    (iblk m c 0 t : Vec Ideal S2x256x2048 .f32) z
      = (m ((c.tc : Thread nD τ).loc main_arg0) : SA.Idx → EReal) (ix3 r cc k) := by
  obtain ⟨e0, e1, e2, -⟩ := block_indices t
  rw [← V_at m c k r cc]
  unfold iblk
  rw [View.read_apply]
  show V m c main_v1 _ = V m c main_v1 _
  congr 1
  funext a; apply Fin.ext
  match a with
  | ⟨0, _⟩ => show win0_0.index t (0 : Fin 3) * 2 + 1 * (z 0).val = k.val; omega
  | ⟨1, _⟩ => show win0_0.index t (1 : Fin 3) * 256 + 1 * (z 1).val = r.val; omega
  | ⟨2, _⟩ => show win0_0.index t (2 : Fin 3) * 2048 + 1 * (z 2).val = cc.val; omega

/-- The noise block of point t at (k, p, q) is u[2048·(256·t + p) + q, k], in the same way: the staged array at
    (k, r, c) is u[2048·r + c, k]. -/
theorem noise_block_at (m : (ℓ : Loc nD τ sig) → Buf (Elt Ideal) ℓ) (c : Dev nD) (t : Fin cfg0.N)
    (z : S2x256x2048.Idx) (k : Fin 2) (r cc : Fin 2048)
    (hk : (z 0).val = k.val) (hr : r.val = 256 * t.val + (z 1).val) (hc : cc.val = (z 2).val) :
    (iblk m c 1 t : Vec Ideal S2x256x2048 .f32) z
      = (m ((c.tc : Thread nD τ).loc main_arg1) : SU.Idx → EReal) (ix2 (row r cc) k) := by
  obtain ⟨-, -, -, e0, e1, e2, -⟩ := block_indices t
  rw [← V_ut m c k r cc]
  unfold iblk
  rw [View.read_apply]
  show V m c main_v2 _ = V m c main_v2 _
  congr 1
  funext a; apply Fin.ext
  match a with
  | ⟨0, _⟩ => show win0_1.index t (0 : Fin 3) * 2 + 1 * (z 0).val = k.val; omega
  | ⟨1, _⟩ => show win0_1.index t (1 : Fin 3) * 256 + 1 * (z 1).val = r.val; omega
  | ⟨2, _⟩ => show win0_1.index t (2 : Fin 3) * 2048 + 1 * (z 2).val = cc.val; omega

/-- The kernel's named scale denotes the rational 1/10 on the extended reals. -/
theorem inv_ten : Named.named (F := Ideal) Cert.KernelIdeal.κ "inv_10" (φ := .f32) 0x3DCCCCCD#32 = ((1 / 10 : ℝ) : EReal) :=
  IdealRules.named_const.ideal_named_scalar _ _ _ _ rfl

/-- Entry (p, q) of what the body leaves from ANY two input blocks x0 (logits), x1 (noise): the generated module's one
    scalar expression of the four loads — channel k of a block is its slice at offset (k, 0, 0), so the load of channel k
    at (0, p, q) is the block at (k, p, q) — which on the extended reals, with the scale read as 1/10, is `kernelElt` of
    the block's two logits and two noise values at (p, q). -/
theorem body_entry (x0 x1 : Vec Ideal S2x256x2048 .f32) (p : Fin 256) (q : Fin 2048) :
    out0_2 x0 x1 (ix2 p q)
      = kernelElt (x0 (ix3 (0 : Fin 2) p q)) (x0 (ix3 (1 : Fin 2) p q)) (x1 (ix3 (0 : Fin 2) p q)) (x1 (ix3 (1 : Fin 2) p q)) := by
  unfold out0_2
  refine (Value.canon2_eq (F := Ideal) (View.ld x0 r0_0) (View.ld x0 r0_1) (View.ld x1 r0_1) (View.ld x1 r0_0) (ix2 p q)).trans ?_
  have h0 : View.ld x0 r0_0 (Value.ix2_0 (ix2 p q)) = x0 (ix3 (0 : Fin 2) p q) := by
    refine congrArg x0 (funext fun a => Fin.ext ?_)
    match a with
    | ⟨0, _⟩ => show 0 + 1 * 0 = 0; rfl
    | ⟨1, _⟩ => show 0 + 1 * p.val = p.val; omega
    | ⟨2, _⟩ => show 0 + 1 * q.val = q.val; omega
  have h1 : View.ld x0 r0_1 (Value.ix2_1 (ix2 p q)) = x0 (ix3 (1 : Fin 2) p q) := by
    refine congrArg x0 (funext fun a => Fin.ext ?_)
    match a with
    | ⟨0, _⟩ => show 1 + 1 * 0 = 1; rfl
    | ⟨1, _⟩ => show 0 + 1 * p.val = p.val; omega
    | ⟨2, _⟩ => show 0 + 1 * q.val = q.val; omega
  have h2 : View.ld x1 r0_1 (Value.ix2_2 (ix2 p q)) = x1 (ix3 (1 : Fin 2) p q) := by
    refine congrArg x1 (funext fun a => Fin.ext ?_)
    match a with
    | ⟨0, _⟩ => show 1 + 1 * 0 = 1; rfl
    | ⟨1, _⟩ => show 0 + 1 * p.val = p.val; omega
    | ⟨2, _⟩ => show 0 + 1 * q.val = q.val; omega
  have h3 : View.ld x1 r0_0 (Value.ix2_3 (ix2 p q)) = x1 (ix3 (0 : Fin 2) p q) := by
    refine congrArg x1 (funext fun a => Fin.ext ?_)
    match a with
    | ⟨0, _⟩ => show 0 + 1 * 0 = 0; rfl
    | ⟨1, _⟩ => show 0 + 1 * p.val = p.val; omega
    | ⟨2, _⟩ => show 0 + 1 * q.val = q.val; omega
  simp only [Value.E2]
  rw [h0, h1, h2, h3, inv_ten]
  rfl

/-- Entry y = (p, q) of what point t leaves is Spec's entry (r, c) of the two arguments, r = 256·t + p, c = q: the
    body's entry at the point's two blocks, each block value read back at the arguments. -/
theorem point_entry (m : (ℓ : Loc nD τ sig) → Buf (Elt Ideal) ℓ) (c : Dev nD) (t : Fin cfg0.N)
    (y : S256x2048.Idx) (r cc : Fin 2048) (hr : r.val = 256 * t.val + (y 0).val) (hc : cc.val = (y 1).val) :
    out0_2 (iblk m c 0 t) (iblk m c 1 t) y
      = Gelt (m ((c.tc : Thread nD τ).loc main_arg0)) (m ((c.tc : Thread nD τ).loc main_arg1)) r cc := by
  obtain ⟨p, q, rfl⟩ : ∃ (p : Fin 256) (q : Fin 2048), y = ix2 p q := ⟨y 0, y 1, eq_ix2 y⟩
  have a0 := logits_block_at m c t (ix3 (0 : Fin 2) p q) 0 r cc rfl hr hc
  have a1 := logits_block_at m c t (ix3 (1 : Fin 2) p q) 1 r cc rfl hr hc
  have u0 := noise_block_at m c t (ix3 (0 : Fin 2) p q) 0 r cc rfl hr hc
  have u1 := noise_block_at m c t (ix3 (1 : Fin 2) p q) 1 r cc rfl hr hc
  refine (body_entry (iblk m c 0 t) (iblk m c 1 t) p q).trans ?_
  unfold Gelt
  rw [a0, a1, u0, u1]

/-- What point t writes back is block (t, 0) of `G` of the two arguments: the block's entry (p, q) sits at
    (t·256 + p, 0·2048 + q) of the result. -/
theorem point_writes_block (m : (ℓ : Loc nD τ sig) → Buf (Elt Ideal) ℓ) (c : Dev nD) (t : Fin cfg0.N) :
    (dats m 0 c).flushed 2 t
      = ((cfg0.win 2).blk t).view.read (Elt Ideal)
          (G (m ((c.tc : Thread nD τ).loc main_arg0)) (m ((c.tc : Thread nD τ).loc main_arg1))) := by
  rw [Value.flushed2]
  funext y
  obtain ⟨-, -, -, -, -, -, e0, e1⟩ := block_indices t
  have hN : t.val < 8 := by have h := t.isLt; have h8 : cfg0.N = 8 := N_0; omega
  have hy0 : (y 0).val < 256 := (y 0).isLt
  have hy1 : (y 1).val < 2048 := (y 1).isLt
  rw [View.read_apply]
  refine (point_entry m c t y ⟨256 * t.val + (y 0).val, by omega⟩ ⟨(y 1).val, hy1⟩ rfl rfl).trans ?_
  show Gelt _ _ _ _ = Gelt _ _ ((((cfg0.win 2).blk t).view.emb y) 0) ((((cfg0.win 2).blk t).view.emb y) 1)
  congr 1 <;> apply Fin.ext
  · show 256 * t.val + (y 0).val = win0_2.index t (0 : Fin 2) * 256 + 1 * (y 0).val; omega
  · show (y 1).val = win0_2.index t (1 : Fin 2) * 2048 + 1 * (y 1).val; omega

/-- An index of the result is in point t's block iff each coordinate is in the block's range on its axis. -/
theorem mem_block (t : Fin cfg0.N) (i : S2048x2048.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v3).slice (win0_2.rect t)).set ↔ _
  rw [View.set_slice_whole, Rect.mem_set_unit]
  exact Iff.rfl

/-- Every index (r, c) of the result is in the block of the point r / 256: 256·(r / 256) ≤ r < 256·(r / 256) + 256,
    and the block spans all 2048 columns. -/
theorem rows_covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ : ∃ t : Fin cfg0.N, t.val = (i 0).val / 256 :=
    ⟨⟨(i 0).val / 256, by rw [show cfg0.N = 8 from N_0]; omega⟩, rfl⟩
  obtain ⟨-, -, -, -, -, -, e0, e1⟩ := block_indices t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

open Idealize.ShloMosaic Idealize.ShloMosaic.ValueIdx Idealize.ShloMosaic.TcCoe Idealize.SL.Sem Cert.KernelIdeal Cert.KernelIdeal.Gen in
/-- After the region the result array is `G` of the two argument arrays: every point writes its block of `G`, and the
    blocks cover the array. -/
theorem kernel_final (m : (ℓ : Loc nD τ sig) → Buf (Elt Ideal) ℓ) (c : Dev nD) :
    (Cert.KernelIdeal.Gen.dats m 0 c).arrAt 2 cfg0.N
      = G (m ((c.tc : Thread nD τ).loc main_arg0)) (m ((c.tc : Thread nD τ).loc main_arg1)) :=
  (dats m 0 c).arrAt_eq_of_cover 2 (G _ _) (fun t _ => point_writes_block m c t) rows_covered

end Cert.Gumbel

end
-- ==== Proof.lean ====
/-
  The gumbel-softmax generator: σ of a logit difference against a two-way softmax.

  For every output entry (r, c) both programs read gen_matrix[r, c, 0..1] and u[2048·r + c, 0..1].  With
  L u = −log (u + ε) + ε, the kernel, tile by tile over eight row blocks of channel-major copies of its arguments,
  stores σ( ((a₀ − a₁) + log (L u₁ / L u₀)) · (1/10) ); the reference stores channel 0 of the softmax of
  z_k = (a_k − log L u_k) / 10 over the two channels.  The precondition makes every input a real number and both
  logarithms of the reference well defined (u + ε > 0 and L u > 0 at every entry of u); under it
  log (L u₁ / L u₀) = log L u₁ − log L u₀, the kernel's argument is z₀ − z₁, and the softmax's shift by max z₀ z₁
  cancels: e^(z₀−M) / (e^(z₀−M) + e^(z₁−M)) = 1 / (1 + e^(z₁−z₀)).

  The modules: Spec (the two scalar expressions and the one whole-array function G), Scalar (the law above, on the
  extended reals), PreFacts (what the precondition says entry by entry), RefRead (the reference's run read at an entry),
  HostPre (the channel-major copies read at an entry), KernelArray (the eight blocks the kernel writes are G's), and
  here the five claims: the three programs run and leave their arguments alone, the named constant 1/10 is the
  idealization's one rewrite, and both idealized programs end at G of the arguments.
-/
import proofs.«182107_g16484084483463_cont_7to1_1417_13_alg».proof.Defs
import proofs.«182107_g16484084483463_cont_7to1_1417_13_alg».proof.Proof.Gen.Kernel
import proofs.«182107_g16484084483463_cont_7to1_1417_13_alg».proof.Proof.Gen.Kernel.Skeleton
import proofs.«182107_g16484084483463_cont_7to1_1417_13_alg».proof.Proof.Gen.Kernel.Launch
import proofs.«182107_g16484084483463_cont_7to1_1417_13_alg».proof.Proof.Gen.Kernel.Points
import proofs.«182107_g16484084483463_cont_7to1_1417_13_alg».proof.Proof.Gen.Kernel.Frame
import proofs.«182107_g16484084483463_cont_7to1_1417_13_alg».proof.Proof.Gen.KernelIdeal
import proofs.«182107_g16484084483463_cont_7to1_1417_13_alg».proof.Proof.Gen.KernelIdeal.Skeleton
import proofs.«182107_g16484084483463_cont_7to1_1417_13_alg».proof.Proof.Gen.KernelIdeal.Launch
import proofs.«182107_g16484084483463_cont_7to1_1417_13_alg».proof.Proof.Gen.KernelIdeal.Points
import proofs.«182107_g16484084483463_cont_7to1_1417_13_alg».proof.Proof.Gen.KernelIdeal.Frame
import proofs.«182107_g16484084483463_cont_7to1_1417_13_alg».proof.Proof.Gen.ReferenceIdeal
import proofs.«182107_g16484084483463_cont_7to1_1417_13_alg».proof.Proof.Gen.Pre_finite_inputs
import proofs.«182107_g16484084483463_cont_7to1_1417_13_alg».proof.Proof.Gen.KernelIdeal.Value
import proofs.«182107_g16484084483463_cont_7to1_1417_13_alg».proof.Proof.Gen.ReferenceIdeal.Run
import proofs.«182107_g16484084483463_cont_7to1_1417_13_alg».proof.Proof.Gen.ReferenceIdeal.Read
import proofs.«182107_g16484084483463_cont_7to1_1417_13_alg».proof.Proof.Spec
import proofs.«182107_g16484084483463_cont_7to1_1417_13_alg».proof.Proof.Scalar
import proofs.«182107_g16484084483463_cont_7to1_1417_13_alg».proof.Proof.PreFacts
import proofs.«182107_g16484084483463_cont_7to1_1417_13_alg».proof.Proof.RefRead
import proofs.«182107_g16484084483463_cont_7to1_1417_13_alg».proof.Proof.HostPre
import proofs.«182107_g16484084483463_cont_7to1_1417_13_alg».proof.Proof.KernelArray
import Idealize.ShloMosaic.Adequacy
import Idealize.ShloMosaic.Init

noncomputable section

namespace Cert.Proof

open Idealize.ShloMosaic Idealize.ShloMosaic.ValueIdx Idealize.SL.Sem Cert.Gumbel

/-- Under the precondition the reference's last stage is G of its arguments: at every entry the four inputs are real
    numbers with both logarithms at positive arguments, so the softmax form is the logistic form. -/
theorem ref_eq_G (x0 : SA.Idx → EReal) (x1 : SU.Idx → EReal)
    (h : Cert.Pre_finite_inputs.fn (F := Ideal) x0 x1 = fun _ => 1#1) :
    Cert.ReferenceIdeal.Read.val_main_v25 (F := Ideal) x0 x1 = G x0 x1 := by
  obtain ⟨hA, hU, hP, hL⟩ := pre_facts x0 x1 h
  funext i
  obtain ⟨r, c, rfl⟩ : ∃ (r c : Fin 2048), i = ix2 r c := ⟨i 0, i 1, eq_ix2 i⟩
  rw [ref_apply]
  show Relt x0 x1 r c = Gelt x0 x1 r c
  unfold Relt Gelt
  obtain ⟨a0, ha0⟩ := hA (ix3 r c (0 : Fin 2))
  obtain ⟨a1, ha1⟩ := hA (ix3 r c (1 : Fin 2))
  obtain ⟨u0, hu0⟩ := hU (ix2 (row r c) (0 : Fin 2))
  obtain ⟨u1, hu1⟩ := hU (ix2 (row r c) (1 : Fin 2))
  have p0 := hP (ix2 (row r c) (0 : Fin 2))
  have q0 := hL (ix2 (row r c) (0 : Fin 2))
  have p1 := hP (ix2 (row r c) (1 : Fin 2))
  have q1 := hL (ix2 (row r c) (1 : Fin 2))
  rw [hu0] at p0 q0
  rw [hu1] at p1 q1
  rw [ha0, ha1, hu0, hu1]
  exact (kernelElt_eq_refElt a0 a1 u0 u1 p0 q0 p1 q1).symm

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the kernel's f32 word nearest 0.1 is read as the rational 1/10 its source spells
    (1.0 / 10.0). -/
theorem preserves : Cert.preserves_Kernel_KernelIdeal :=
  IdealRules.named_const.statement Cert.KernelIdeal.κ "inv_10" .f32 0x3DCCCCCD#32 ((1 / 10 : ℝ) : EReal) rfl

/-- Both idealized programs end with the result array at G of the (agreeing) arguments. -/
theorem algebraic : Cert.algebraic_KernelIdeal_ReferenceIdeal := by
  intro m ρ m' ρ' hpre hagree
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (kernel_final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2]
    exact ref_eq_G _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
